-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x12544 : Shape := ⟨2, ![20000, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S_ : Shape := ⟨0, ![]⟩

class Facts : Prop where
  bcast_S_S20000x12544 : S_.BroadcastsInDim S20000x12544 (![] : Fin 0 → Fin S20000x12544.rank)
  reducesTo_S20000x12544_S_d0_1 : S20000x12544.ReducesTo [0, 1] S_
  h_S_ : 0 < S_.numel
  bcast_S_S12544x1024 : S_.BroadcastsInDim S12544x1024 (![] : Fin 0 → Fin S12544x1024.rank)
  reducesTo_S12544x1024_S_d0_1 : S12544x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x12 : S_.BroadcastsInDim S1024x12 (![] : Fin 0 → Fin S1024x12.rank)
  reducesTo_S1024x12_S_d0_1 : S1024x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg7 : FVec F S1024x12 .f32) (main_arg8 : FVec F S12 .f32) (main_v33 : IVec S_ 1) : IVec S_ 1 :=
  let main_v34 : FVec F S1024x12 .f32 := Host.absf main_arg7
  let main_cst_12 : FVec F S_ .f32 := constant S_ .f32 0x7F800000#32
  let main_v35 : FVec F S1024x12 .f32 := broadcastInDim S1024x12 ![] bcast_S_S1024x12 main_cst_12
  let main_v36 : IVec S1024x12 1 := cmpf .olt main_v34 main_v35
  let main_c_13 : IVec S_ 1 := constantI S_ 1 1#1
  let main_v37 : IVec S_ 1 := (fun x v => Host.reduce IntOp.andi x v reducesTo_S1024x12_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  main_v43

def fn_part1 {F : FTy → Type} [FloatOps F] (main_arg4 : FVec F S1024 .f32) (main_arg5 : FVec F S1024x4 .f32) (main_arg6 : FVec F S4 .f32) (main_arg7 : FVec F S1024x12 .f32) (main_arg8 : FVec F S12 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x4 .f32 := Host.absf main_arg5
  let main_cst_8 : FVec F S_ .f32 := constant S_ .f32 0x7F800000#32
  let main_v25 : FVec F S1024x4 .f32 := broadcastInDim S1024x4 ![] bcast_S_S1024x4 main_cst_8
  let main_v26 : IVec S1024x4 1 := cmpf .olt main_v24 main_v25
  let main_c_9 : IVec S_ 1 := constantI S_ 1 1#1
  let main_v27 : IVec S_ 1 := (fun x v => Host.reduce IntOp.andi x v reducesTo_S1024x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_v33

def fn {F : FTy → Type} [FloatOps F] (main_arg0 : FVec F S20000x12544 .f32) (main_arg1 : FVec F S12544x1024 .f32) (main_arg2 : FVec F S1024 .f32) (main_arg3 : FVec F S1024x1024 .f32) (main_arg4 : FVec F S1024 .f32) (main_arg5 : FVec F S1024x4 .f32) (main_arg6 : FVec F S4 .f32) (main_arg7 : FVec F S1024x12 .f32) (main_arg8 : FVec F S12 .f32) : IVec S_ 1 :=
  let main_v0 : FVec F S20000x12544 .f32 := Host.absf main_arg0
  let main_cst : FVec F S_ .f32 := constant S_ .f32 0x7F800000#32
  let main_v1 : FVec F S20000x12544 .f32 := broadcastInDim S20000x12544 ![] bcast_S_S20000x12544 main_cst
  let main_v2 : IVec S20000x12544 1 := cmpf .olt main_v0 main_v1
  let main_c : IVec S_ 1 := constantI S_ 1 1#1
  let main_v3 : IVec S_ 1 := (fun x v => Host.reduce IntOp.andi x v reducesTo_S20000x12544_S_d0_1 h_S_) main_v2 main_c
  let main_v4 : FVec F S12544x1024 .f32 := Host.absf main_arg1
  let main_cst_0 : FVec F S_ .f32 := constant S_ .f32 0x7F800000#32
  let main_v5 : FVec F S12544x1024 .f32 := broadcastInDim S12544x1024 ![] bcast_S_S12544x1024 main_cst_0
  let main_v6 : IVec S12544x1024 1 := cmpf .olt main_v4 main_v5
  let main_c_1 : IVec S_ 1 := constantI S_ 1 1#1
  let main_v7 : IVec S_ 1 := (fun x v => Host.reduce IntOp.andi x v reducesTo_S12544x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S20000x12544 : Shape := ⟨2, ![20000, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S1x1024 : Shape := ⟨2, ![1, 1024]⟩
abbrev S1024x16 : Shape := ⟨2, ![1024, 16]⟩
abbrev S_ : Shape := ⟨0, ![]⟩
abbrev S1024x128 : Shape := ⟨2, ![1024, 128]⟩
abbrev S16 : Shape := ⟨1, ![16]⟩
abbrev S128 : Shape := ⟨1, ![128]⟩
abbrev S1x128 : Shape := ⟨2, ![1, 128]⟩
abbrev S20000x128 : Shape := ⟨2, ![20000, 128]⟩
abbrev S2000x896 : Shape := ⟨2, ![2000, 896]⟩
abbrev S896x1024 : Shape := ⟨2, ![896, 1024]⟩
abbrev S2000x128 : Shape := ⟨2, ![2000, 128]⟩
abbrev S2000x1024 : Shape := ⟨2, ![2000, 1024]⟩
abbrev S20000x4 : Shape := ⟨2, ![20000, 4]⟩
abbrev S20000x12 : Shape := ⟨2, ![20000, 12]⟩

abbrev nBuf : Space → Nat
  | .hbm => 26
  | .vmem => 12
  | .smem => 0
  | _ => 0

abbrev bufTy : (tb : Table) → Fin (tcTables nBuf tb) → BufTy
  | .hbm, ⟨0, _⟩ => ⟨S20000x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x12, .f32⟩
  | .hbm, ⟨8, _⟩ => ⟨S12, .f32⟩
  | .hbm, ⟨9, _⟩ => ⟨S12544x1024, .bf16⟩
  | .hbm, ⟨10, _⟩ => ⟨S1x1024, .f32⟩
  | .hbm, ⟨11, _⟩ => ⟨S1024x1024, .bf16⟩
  | .hbm, ⟨12, _⟩ => ⟨S1x1024, .f32⟩
  | .hbm, ⟨13, _⟩ => ⟨S1024x16, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x128, .bf16⟩
  | .hbm, ⟨18, _⟩ => ⟨S16, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S20000x128, .f32⟩
  | .hbm, ⟨24, _⟩ => ⟨S20000x4, .f32⟩
  | .hbm, ⟨25, _⟩ => ⟨S20000x12, .f32⟩
  | .local _ .vmem, ⟨0, _⟩ => ⟨S2000x896, .f32⟩
  | .local _ .vmem, ⟨1, _⟩ => ⟨S2000x896, .f32⟩
  | .local _ .vmem, ⟨2, _⟩ => ⟨S896x1024, .bf16⟩
  | .local _ .vmem, ⟨3, _⟩ => ⟨S896x1024, .bf16⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S1024x128, .bf16⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x1024, .f32⟩
  | _, _ => ⟨S20000x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![10, 14], ![false, false]⟩

def k0_cond2 (i : grid0.Coords) : BitVec 1 :=
  let arg1 : BitVec 32 := BitVec.ofNat 32 (i 1).val
  let c13_i32 : BitVec 32 := 13#32
  let v13 : BitVec 1 := Scalar.cmpi .eq arg1 c13_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  shapeCasts_S1024_S1x1024 : S1024.ShapeCasts S1x1024
  concatenates_S1024x4_S1024x12_S1024x16_d1 : Shape.Concatenates [S1024x4, S1024x12] S1024x16 1
  pads_S1024x16_S1024x128_000_01120 : S1024x16.Pads (![0, 0] : Fin 2 → Nat) ![0, 112] ![0, 0] S1024x128
  h_S_ : 0 < S_.numel
  concatenates_S4_S12_S16_d0 : Shape.Concatenates [S4, S12] S16 0
  pads_S16_S128_01120 : S16.Pads (![0] : Fin 1 → Nat) ![112] ![0] S128
  shapeCasts_S128_S1x128 : S128.ShapeCasts S1x128
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  inb_S2000x896_S2000x896_0_0 : ∀ a, (![0, 0] : Fin 2 → Nat) a + S2000x896.size a ≤ S2000x896.size a
  h_S2000x896 : 0 < S2000x896.numel
  inb_S896x1024_S896x1024_0_0 : ∀ a, (![0, 0] : Fin 2 → Nat) a + S896x1024.size a ≤ S896x1024.size a
  h_S896x1024 : 0 < S896x1024.numel
  shapeCasts_S896x1024_S896x1024 : S896x1024.ShapeCasts S896x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S20000x128_S20000x4_0_0 : S20000x128.Slices ![0, 0] S20000x4
  slices_S20000x128_S20000x12_0_4 : S20000x128.Slices ![0, 4] S20000x12
  dot_S2000x896_S896x1024_S2000x1024_1_0_0_1_n_n_wf : DotDims.WF S2000x896 S896x1024 S2000x1024 [1] [0] [0] [1] [] []
  dot_S2000x1024_S1024x1024_S2000x1024_1_0_0_1_n_n_wf : DotDims.WF S2000x1024 S1024x1024 S2000x1024 [1] [0] [0] [1] [] []
  dot_S2000x1024_S1024x128_S2000x128_1_0_0_1_n_n_wf : DotDims.WF S2000x1024 S1024x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x896.size a ≤ S20000x12544.size a
  hwx0_0 : ∀ i : grid0.Coords, EltTy.bits .f32 = 32 ∨ (Rect.block (s := S20000x12544) S2000x896.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S896x1024.size a ≤ S12544x1024.size a
  hwx0_1 : ∀ i : grid0.Coords, EltTy.bits .bf16 = 32 ∨ (Rect.block (s := S12544x1024) S896x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .bf16 = 32 ∨ (Rect.block (s := S1024x128) S1024x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S20000x128.size a
  hwx0_7 : ∀ i : grid0.Coords, EltTy.bits .f32 = 32 ∨ (Rect.block (s := S20000x128) S2000x128.size (cc0_transform_7 i) (hinb0_7 i)).WholeWords (EltTy.packing .f32)

variable [Facts₀]

def dot_S2000x896_S896x1024_S2000x1024_1_0_0_1_n_n : DotDims S2000x896 S896x1024 S2000x1024 where
  lhsContracting := [1]
  rhsContracting := [0]
  lhsNonContracting := [0]
  rhsNonContracting := [1]
  lhsBatch := []
  rhsBatch := []
  wf := dot_S2000x896_S896x1024_S2000x1024_1_0_0_1_n_n_wf
def dot_S2000x1024_S1024x1024_S2000x1024_1_0_0_1_n_n : DotDims S2000x1024 S1024x1024 S2000x1024 where
  lhsContracting := [1]
  rhsContracting := [0]
  lhsNonContracting := [0]
  rhsNonContracting := [1]
  lhsBatch := []
  rhsBatch := []
  wf := dot_S2000x1024_S1024x1024_S2000x1024_1_0_0_1_n_n_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf

abbrev win0_0 : Pipeline.Window sig grid0 :=
  Pipeline.Window.ofSpec (Memref.whole main_arg0) S2000x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S896x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S20000x12544 : Shape := ⟨2, ![20000, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S20000x1024 : Shape := ⟨2, ![20000, 1024]⟩
abbrev S1x1024 : Shape := ⟨2, ![1, 1024]⟩
abbrev S_ : Shape := ⟨0, ![]⟩
abbrev S20000x4 : Shape := ⟨2, ![20000, 4]⟩
abbrev S1x4 : Shape := ⟨2, ![1, 4]⟩
abbrev S20000x12 : Shape := ⟨2, ![20000, 12]⟩
abbrev S1x12 : Shape := ⟨2, ![1, 12]⟩

abbrev nBuf : Space → Nat
  | .hbm => 31
  | .vmem => 0
  | .smem => 0
  | _ => 0

abbrev bufTy : (tb : Table) → Fin (tcTables nBuf tb) → BufTy
  | .hbm, ⟨0, _⟩ => ⟨S20000x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x12, .f32⟩
  | .hbm, ⟨8, _⟩ => ⟨S12, .f32⟩
  | .hbm, ⟨9, _⟩ => ⟨S20000x1024, .f32⟩
  | .hbm, ⟨10, _⟩ => ⟨S1x1024, .f32⟩
  | .hbm, ⟨11, _⟩ => ⟨S20000x1024, .f32⟩
  | .hbm, ⟨12, _⟩ => ⟨S20000x1024, .f32⟩
  | .hbm, ⟨13, _⟩ => ⟨S_, .f32⟩
  | .hbm, ⟨14, _⟩ => ⟨S20000x1024, .f32⟩
  | .hbm, ⟨15, _⟩ => ⟨S20000x1024, .f32⟩
  | .hbm, ⟨16, _⟩ => ⟨S20000x1024, .f32⟩
  | .hbm, ⟨17, _⟩ => ⟨S1x1024, .f32⟩
  | .hbm, ⟨18, _⟩ => ⟨S20000x1024, .f32⟩
  | .hbm, ⟨19, _⟩ => ⟨S20000x1024, .f32⟩
  | .hbm, ⟨20, _⟩ => ⟨S_, .f32⟩
  | .hbm, ⟨21, _⟩ => ⟨S20000x1024, .f32⟩
  | .hbm, ⟨22, _⟩ => ⟨S20000x1024, .f32⟩
  | .hbm, ⟨23, _⟩ => ⟨S20000x4, .f32⟩
  | .hbm, ⟨24, _⟩ => ⟨S1x4, .f32⟩
  | .hbm, ⟨25, _⟩ => ⟨S20000x4, .f32⟩
  | .hbm, ⟨26, _⟩ => ⟨S20000x4, .f32⟩
  | .hbm, ⟨27, _⟩ => ⟨S20000x12, .f32⟩
  | .hbm, ⟨28, _⟩ => ⟨S1x12, .f32⟩
  | .hbm, ⟨29, _⟩ => ⟨S20000x12, .f32⟩
  | .hbm, ⟨30, _⟩ => ⟨S20000x12, .f32⟩
  | _, _ => ⟨S20000x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  bcast_S_S20000x1024 : S_.BroadcastsInDim S20000x1024 (![] : Fin 0 → Fin S20000x1024.rank)
  bcast_S4_S1x4_1 : S4.BroadcastsInDim S1x4 (![1] : Fin 1 → Fin S1x4.rank)
  bcast_S1x4_S20000x4_0_1 : S1x4.BroadcastsInDim S20000x4 (![0, 1] : Fin 2 → Fin S20000x4.rank)
  bcast_S12_S1x12_1 : S12.BroadcastsInDim S1x12 (![1] : Fin 1 → Fin S1x12.rank)
  bcast_S1x12_S20000x12_0_1 : S1x12.BroadcastsInDim S20000x12 (![0, 1] : Fin 2 → Fin S20000x12.rank)
  dot_S20000x12544_S12544x1024_S20000x1024_1_0_0_1_n_n_wf : DotDims.WF S20000x12544 S12544x1024 S20000x1024 [1] [0] [0] [1] [] []
  dot_S20000x1024_S1024x1024_S20000x1024_1_0_0_1_n_n_wf : DotDims.WF S20000x1024 S1024x1024 S20000x1024 [1] [0] [0] [1] [] []
  dot_S20000x1024_S1024x4_S20000x4_1_0_0_1_n_n_wf : DotDims.WF S20000x1024 S1024x4 S20000x4 [1] [0] [0] [1] [] []
  dot_S20000x1024_S1024x12_S20000x12_1_0_0_1_n_n_wf : DotDims.WF S20000x1024 S1024x12 S20000x12 [1] [0] [0] [1] [] []

variable [Facts₀]

def dot_S20000x12544_S12544x1024_S20000x1024_1_0_0_1_n_n : DotDims S20000x12544 S12544x1024 S20000x1024 where
  lhsContracting := [1]
  rhsContracting := [0]
  lhsNonContracting := [0]
  rhsNonContracting := [1]
  lhsBatch := []
  rhsBatch := []
  wf := dot_S20000x12544_S12544x1024_S20000x1024_1_0_0_1_n_n_wf
def dot_S20000x1024_S1024x1024_S20000x1024_1_0_0_1_n_n : DotDims S20000x1024 S1024x1024 S20000x1024 where
  lhsContracting := [1]
  rhsContracting := [0]
  lhsNonContracting := [0]
  rhsNonContracting := [1]
  lhsBatch := []
  rhsBatch := []
  wf := dot_S20000x1024_S1024x1024_S20000x1024_1_0_0_1_n_n_wf
def dot_S20000x1024_S1024x4_S20000x4_1_0_0_1_n_n : DotDims S20000x1024 S1024x4 S20000x4 where
  lhsContracting := [1]
  rhsContracting := [0]
  lhsNonContracting := [0]
  rhsNonContracting := [1]
  lhsBatch := []
  rhsBatch := []
  wf := dot_S20000x1024_S1024x4_S20000x4_1_0_0_1_n_n_wf
def dot_S20000x1024_S1024x12_S20000x12_1_0_0_1_n_n : DotDims S20000x1024 S1024x12 S20000x12 where
  lhsContracting := [1]
  rhsContracting := [0]
  lhsNonContracting := [0]
  rhsNonContracting := [1]
  lhsBatch := []
  rhsBatch := []
  wf := dot_S20000x1024_S1024x12_S20000x12_1_0_0_1_n_n_wf

class Facts : Prop extends Facts₀ where

variable [Facts]
-- ==== Proof.Spec.lean ====
/-
  The box head on the extended reals, as one function of its arrays.

  A dense layer sends a row h of length a to the row  c ↦ (∑ k, h k · w (k, c)) + b c ;  the rectifier is  v ↦ max v 0
  with 0 spelt as the float word +0.0 both programs use.  The box head is

      fc1 (n, ·) = relu (layer x(n, ·) w1 b1)        fc2 (n, ·) = relu (layer fc1(n, ·) w2 b2)
      out (n, ·) = layer fc2(n, ·) w b

  for a last layer (w, b) of any width d: the class scores (d = 4), the box offsets (d = 12), or both side by side and
  padded with zero columns (d = 128).  An entry of a layer depends on column c of w and entry c of b only, so two last
  layers that agree on one column give the same entry there (layer_congr): the padded layer's first sixteen columns
  are the two heads.
-/
import Idealize.ShloMosaic.PureOps.Ideal
import Idealize.ShloMosaic.Lib.ValueIdx

noncomputable section

namespace Cert.BoxHead

open Idealize.ShloMosaic Idealize.ShloMosaic.ValueIdx
open scoped BigOperators

/-- A matrix of extended reals with a rows and b columns. -/
abbrev Mat (a b : Nat) : Type := (⟨2, ![a, b]⟩ : Shape).Idx → EReal

/-- The float word +0.0 at the ideal values. -/
abbrev zero : EReal := Ideal.ofBits .f32 0x00000000#32

/-- One entry of a dense layer: the row h against column c of w, plus entry c of the bias. -/
def layer {a d : Nat} (h : Fin a → EReal) (w : Mat a d) (b : Fin d → EReal) (c : Fin d) : EReal :=
  (∑ k : Fin a, h k * w (ix2 k c)) + b c

/-- The rectifier. -/
def relu (v : EReal) : EReal := max v zero

/-- The first hidden layer at row n. -/
def fc1 (x : Mat 20000 12544) (w1 : Mat 12544 1024) (b1 : Fin 1024 → EReal) (n : Fin 20000) (j : Fin 1024) : EReal :=
  relu (layer (fun k => x (ix2 n k)) w1 b1 j)

/-- The second hidden layer at row n. -/
def fc2 (x : Mat 20000 12544) (w1 : Mat 12544 1024) (b1 : Fin 1024 → EReal) (w2 : Mat 1024 1024)
    (b2 : Fin 1024 → EReal) (n : Fin 20000) (j : Fin 1024) : EReal :=
  relu (layer (fc1 x w1 b1 n) w2 b2 j)

/-- The head of width d at row n. -/
def out (x : Mat 20000 12544) (w1 : Mat 12544 1024) (b1 : Fin 1024 → EReal) (w2 : Mat 1024 1024)
    (b2 : Fin 1024 → EReal) {d : Nat} (w : Mat 1024 d) (b : Fin d → EReal) (n : Fin 20000) (c : Fin d) : EReal :=
  layer (fc2 x w1 b1 w2 b2 n) w b c

/-- The head as an array. -/
def outArr (x : Mat 20000 12544) (w1 : Mat 12544 1024) (b1 : Fin 1024 → EReal) (w2 : Mat 1024 1024)
    (b2 : Fin 1024 → EReal) {d : Nat} (w : Mat 1024 d) (b : Fin d → EReal) : Mat 20000 d :=
  fun i => out x w1 b1 w2 b2 w b (i 0) (i 1)

/-- A layer's entry reads one column of the weights and one entry of the bias. -/
theorem layer_congr {a d d' : Nat} (h : Fin a → EReal) (w : Mat a d) (b : Fin d → EReal) (w' : Mat a d')
    (b' : Fin d' → EReal) (c : Fin d) (c' : Fin d') (hw : ∀ k, w (ix2 k c) = w' (ix2 k c')) (hb : b c = b' c') :
    layer h w b c = layer h w' b' c' := by
  unfold layer
  rw [hb]
  exact congrArg (· + b' c') (Finset.sum_congr rfl fun k _ => by rw [hw k])

end Cert.BoxHead

end
-- ==== Proof.Ref.lean ====
/-
  The reference computes the box head.

  Its program is three dense layers written with whole-array operations: a matrix product, the bias laid out as one
  row and copied down the rows, an addition, and (after the first two) a maximum with a zero array.  Read at an entry
  (n, j), each product is the sum over k of the left factor at (n, k) times the right factor at (k, j), the bias
  array is the bias vector at j, and the zero array is the zero word; so the two results are the heads of widths 4 and
  12 of the specification, entry by entry.
-/
import proofs.«116548_j31834297598413_2_alg».proof.Proof.Gen.ReferenceIdeal.Read
import proofs.«116548_j31834297598413_2_alg».proof.Proof.Spec

noncomputable section

namespace Cert.ReferenceIdeal.RefValue

open Cert.ReferenceIdeal Cert.ReferenceIdeal.Read Idealize.ShloMosaic Idealize.ShloMosaic.ValueIdx Cert.BoxHead
open scoped BigOperators

/-! ### Where each operation reads its operands -/

theorem lhs1 (n : Fin 20000) (j : Fin 1024) (k : Fin 12544) : lidx_main_v0 (ix2 n j) k = ix2 n k :=
  funext fun a => Fin.ext (by match a with | ⟨0, _⟩ => rfl | ⟨1, _⟩ => rfl)
theorem rhs1 (n : Fin 20000) (j : Fin 1024) (k : Fin 12544) : ridx_main_v0 (ix2 n j) k = ix2 k j :=
  funext fun a => Fin.ext (by match a with | ⟨0, _⟩ => rfl | ⟨1, _⟩ => rfl)
theorem bias1 (n : Fin 20000) (j : Fin 1024) : idx_main_v1 (idx_main_v2 (ix2 n j)) = ix1 j :=
  funext fun a => Fin.ext (by match a with | ⟨0, _⟩ => rfl)

theorem lhs2 (n : Fin 20000) (j : Fin 1024) (k : Fin 1024) : lidx_main_v5 (ix2 n j) k = ix2 n k :=
  funext fun a => Fin.ext (by match a with | ⟨0, _⟩ => rfl | ⟨1, _⟩ => rfl)
theorem rhs2 (n : Fin 20000) (j : Fin 1024) (k : Fin 1024) : ridx_main_v5 (ix2 n j) k = ix2 k j :=
  funext fun a => Fin.ext (by match a with | ⟨0, _⟩ => rfl | ⟨1, _⟩ => rfl)
theorem bias2 (n : Fin 20000) (j : Fin 1024) : idx_main_v6 (idx_main_v7 (ix2 n j)) = ix1 j :=
  funext fun a => Fin.ext (by match a with | ⟨0, _⟩ => rfl)

theorem lhsC (n : Fin 20000) (c : Fin 4) (k : Fin 1024) : lidx_main_v10 (ix2 n c) k = ix2 n k :=
  funext fun a => Fin.ext (by match a with | ⟨0, _⟩ => rfl | ⟨1, _⟩ => rfl)
theorem rhsC (n : Fin 20000) (c : Fin 4) (k : Fin 1024) : ridx_main_v10 (ix2 n c) k = ix2 k c :=
  funext fun a => Fin.ext (by match a with | ⟨0, _⟩ => rfl | ⟨1, _⟩ => rfl)
theorem biasC (n : Fin 20000) (c : Fin 4) : idx_main_v11 (idx_main_v12 (ix2 n c)) = ix1 c :=
  funext fun a => Fin.ext (by match a with | ⟨0, _⟩ => rfl)

theorem lhsR (n : Fin 20000) (c : Fin 12) (k : Fin 1024) : lidx_main_v14 (ix2 n c) k = ix2 n k :=
  funext fun a => Fin.ext (by match a with | ⟨0, _⟩ => rfl | ⟨1, _⟩ => rfl)
theorem rhsR (n : Fin 20000) (c : Fin 12) (k : Fin 1024) : ridx_main_v14 (ix2 n c) k = ix2 k c :=
  funext fun a => Fin.ext (by match a with | ⟨0, _⟩ => rfl | ⟨1, _⟩ => rfl)
theorem biasR (n : Fin 20000) (c : Fin 12) : idx_main_v15 (idx_main_v16 (ix2 n c)) = ix1 c :=
  funext fun a => Fin.ext (by match a with | ⟨0, _⟩ => rfl)

/-! ### The layers, entry by entry -/

variable (x0 : (⟨S20000x12544, .f32⟩ : BufTy).Contents (Elt Ideal)) (x1 : (⟨S12544x1024, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal)) (x5 : (⟨S1024x4, .f32⟩ : BufTy).Contents (Elt Ideal)) (x6 : (⟨S4, .f32⟩ : BufTy).Contents (Elt Ideal))
  (x7 : (⟨S1024x12, .f32⟩ : BufTy).Contents (Elt Ideal)) (x8 : (⟨S12, .f32⟩ : BufTy).Contents (Elt Ideal))

/-- The first rectified layer. -/
theorem hidden1_eq (n : Fin 20000) (j : Fin 1024) :
    val_main_v4 (F := Ideal) x0 x1 x2 (ix2 n j) = fc1 x0 x1 (fun j => x2 (ix1 j)) n j := by
  rw [val_main_v4_apply, val_main_v3_apply, val_main_v0_apply, val_main_v2_apply, val_main_v1_apply,
    val_main_call0_v0_apply, val_main_call0_cst_apply]
  simp only [lhs1, rhs1, bias1]
  rfl

/-- The second rectified layer. -/
theorem hidden2_eq (n : Fin 20000) (j : Fin 1024) :
    val_main_v9 (F := Ideal) x0 x1 x2 x3 x4 (ix2 n j)
      = fc2 x0 x1 (fun j => x2 (ix1 j)) x3 (fun j => x4 (ix1 j)) n j := by
  rw [val_main_v9_apply, val_main_v8_apply, val_main_v5_apply, val_main_v7_apply, val_main_v6_apply,
    val_main_call1_v0_apply, val_main_call1_cst_apply]
  simp only [lhs2, rhs2, bias2, hidden1_eq]
  rfl

/-- The class scores. -/
theorem scores_apply (n : Fin 20000) (c : Fin 4) :
    val_main_v13 (F := Ideal) x0 x1 x2 x3 x4 x5 x6 (ix2 n c)
      = out x0 x1 (fun j => x2 (ix1 j)) x3 (fun j => x4 (ix1 j)) x5 (fun c => x6 (ix1 c)) n c := by
  rw [val_main_v13_apply, val_main_v10_apply, val_main_v12_apply, val_main_v11_apply]
  simp only [lhsC, rhsC, biasC, hidden2_eq]
  rfl

/-- The box offsets. -/
theorem boxes_apply (n : Fin 20000) (c : Fin 12) :
    val_main_v17 (F := Ideal) x0 x1 x2 x3 x4 x7 x8 (ix2 n c)
      = out x0 x1 (fun j => x2 (ix1 j)) x3 (fun j => x4 (ix1 j)) x7 (fun c => x8 (ix1 c)) n c := by
  rw [val_main_v17_apply, val_main_v14_apply, val_main_v16_apply, val_main_v15_apply]
  simp only [lhsR, rhsR, biasR, hidden2_eq]
  rfl

/-- The reference's first result is the head of width 4. -/
theorem scores_eq :
    val_main_v13 (F := Ideal) x0 x1 x2 x3 x4 x5 x6
      = outArr x0 x1 (fun j => x2 (ix1 j)) x3 (fun j => x4 (ix1 j)) x5 (fun c => x6 (ix1 c)) := by
  funext i
  obtain ⟨n, c, rfl⟩ : ∃ (n : Fin 20000) (c : Fin 4), i = ix2 n c := ⟨i 0, i 1, eq_ix2 i⟩
  exact scores_apply x0 x1 x2 x3 x4 x5 x6 n c

/-- The reference's second result is the head of width 12. -/
theorem boxes_eq :
    val_main_v17 (F := Ideal) x0 x1 x2 x3 x4 x7 x8
      = outArr x0 x1 (fun j => x2 (ix1 j)) x3 (fun j => x4 (ix1 j)) x7 (fun c => x8 (ix1 c)) := by
  funext i
  obtain ⟨n, c, rfl⟩ : ∃ (n : Fin 20000) (c : Fin 12), i = ix2 n c := ⟨i 0, i 1, eq_ix2 i⟩
  exact boxes_apply x0 x1 x2 x3 x4 x7 x8 n c

end Cert.ReferenceIdeal.RefValue

end
-- ==== Proof.Pieces.lean ====
/-
  What one run of the kernel body leaves behind, as values of what it found.

  The body keeps the first layer's accumulator in a scratch buffer across the fourteen steps of a row tile.  At the
  first step it clears the accumulator and adds the step's product to the cleared one; at every later step it adds the
  step's product to what the step before left; and at the last step it also turns the finished accumulator into the
  output tile.  The body's stores cover the buffers they write, so what is read back is the stored value, and a load
  that follows a store reads what was stored.
-/
import proofs.«116548_j31834297598413_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First step of a row tile: the accumulator ends at the step's product added to the cleared accumulator. -/
theorem acc_first (c : Dev nD) (i : grid0.Coords) (arg2 : Memref sig .tc .vmem S2000x896 .f32) (harg2 : arg2.IsWhole) (arg3 : Memref sig .tc .vmem S896x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x1024 .f32) (harg10 : arg10.IsWhole) (hc0 : cond0_0 i) (hc1 : ¬cond0_1 i) (x0 : Vec F S2000x896 .f32) (x1 : Vec F S896x1024 .bf16) (x2 : Vec F S1x1024 .f32) (x3 : Vec F S1024x1024 .bf16) (x4 : Vec F S1x1024 .f32) (x5 : Vec F S1024x128 .bf16) (x6 : Vec F S1x128 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay2 x0 (k0_pay1 (F := F)) x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S2000x1024) hz, View.readCov_unit_zero (S := S2000x1024) _ hz]
  simp only [View.readAt_eq_ld, harg2.read_unread, harg3.read_unread, harg4.read_unread, harg5.read_unread, harg6.read_unread, harg7.read_unread, harg8.read_unread, harg9.read_unread, harg10.read_unread, View.ld_unit_zero (S := S2000x896) hz, View.ld_unit_zero (S := S896x1024) hz, View.ld_unit_zero (S := S2000x1024) hz, View.ld_unit_zero (S := S1x1024) hz, View.ld_unit_zero (S := S1024x1024) hz, View.ld_unit_zero (S := S1024x128) hz, View.ld_unit_zero (S := S1x128) hz, View.ld_unit_zero (S := S2000x128) hz]

/-- A middle step: the accumulator ends at the step's product added to what the step before left. -/
theorem acc_middle (c : Dev nD) (i : grid0.Coords) (arg2 : Memref sig .tc .vmem S2000x896 .f32) (harg2 : arg2.IsWhole) (arg3 : Memref sig .tc .vmem S896x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x1024 .f32) (harg10 : arg10.IsWhole) (hc0 : ¬cond0_0 i) (hc1 : ¬cond0_1 i) (x0 : Vec F S2000x896 .f32) (x1 : Vec F S896x1024 .bf16) (x2 : Vec F S1x1024 .f32) (x3 : Vec F S1024x1024 .bf16) (x4 : Vec F S1x1024 .f32) (x5 : Vec F S1024x128 .bf16) (x6 : Vec F S1x128 .f32) (xs0 : Vec F S2000x1024 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay2 x0 xs0 x1 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S2000x896) hz, View.ld_unit_zero (S := S896x1024) hz, View.ld_unit_zero (S := S2000x1024) hz, View.ld_unit_zero (S := S1x1024) hz, View.ld_unit_zero (S := S1024x1024) hz, View.ld_unit_zero (S := S1024x128) hz, View.ld_unit_zero (S := S1x128) hz, View.ld_unit_zero (S := S2000x128) hz]

/-- The last step: the accumulator likewise, -/
theorem acc_last (c : Dev nD) (i : grid0.Coords) (arg2 : Memref sig .tc .vmem S2000x896 .f32) (harg2 : arg2.IsWhole) (arg3 : Memref sig .tc .vmem S896x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x1024 .f32) (harg10 : arg10.IsWhole) (hc0 : ¬cond0_0 i) (hc1 : cond0_1 i) (x0 : Vec F S2000x896 .f32) (x1 : Vec F S896x1024 .bf16) (x2 : Vec F S1x1024 .f32) (x3 : Vec F S1024x1024 .bf16) (x4 : Vec F S1x1024 .f32) (x5 : Vec F S1024x128 .bf16) (x6 : Vec F S1x128 .f32) (xs0 : Vec F S2000x1024 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay2 x0 xs0 x1 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S2000x896) hz, View.ld_unit_zero (S := S896x1024) hz, View.ld_unit_zero (S := S2000x1024) hz, View.ld_unit_zero (S := S1x1024) hz, View.ld_unit_zero (S := S1024x1024) hz, View.ld_unit_zero (S := S1024x128) hz, View.ld_unit_zero (S := S1x128) hz, View.ld_unit_zero (S := S2000x128) hz]

/-- and the output tile is the epilogue of the finished accumulator. -/
theorem out_last (c : Dev nD) (i : grid0.Coords) (arg2 : Memref sig .tc .vmem S2000x896 .f32) (harg2 : arg2.IsWhole) (arg3 : Memref sig .tc .vmem S896x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1x128 .f32) (harg8 : arg8.IsWhole) (arg9 : Memref sig .tc .vmem S2000x128 .f32) (harg9 : arg9.IsWhole) (arg10 : Memref sig .tc .vmem S2000x1024 .f32) (harg10 : arg10.IsWhole) (hc0 : ¬cond0_0 i) (hc1 : cond0_1 i) (x0 : Vec F S2000x896 .f32) (x1 : Vec F S896x1024 .bf16) (x2 : Vec F S1x1024 .f32) (x3 : Vec F S1024x1024 .bf16) (x4 : Vec F S1x1024 .f32) (x5 : Vec F S1024x128 .bf16) (x6 : Vec F S1x128 .f32) (xs0 : Vec F S2000x1024 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay3 (k0_pay2 x0 xs0 x1) x2 x3 x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S2000x896) hz, View.ld_unit_zero (S := S896x1024) hz, View.ld_unit_zero (S := S2000x1024) hz, View.ld_unit_zero (S := S1x1024) hz, View.ld_unit_zero (S := S1024x1024) hz, View.ld_unit_zero (S := S1024x128) hz, View.ld_unit_zero (S := S1x128) hz, View.ld_unit_zero (S := S2000x128) hz, View.readCov_unit_zero (S := S2000x1024) _ hz]

end Cert.KernelIdeal.Pieces

end
-- ==== Proof.Steps.lean ====
/-
  The accumulator and the output tile after each grid step, as the body's arithmetic of the step's blocks.

  The grid runs the fourteen steps of a row tile one after the other.  After the first step of a tile (position ≡ 0
  mod 14) the accumulator is the step's product added to a cleared accumulator; after any other step it is the step's
  product added to what the step before left; and after the last step (position ≡ 13 mod 14) the output tile is the
  epilogue of that accumulator.
-/
import proofs.«116548_j31834297598413_2_alg».proof.Proof.Pieces

set_option maxRecDepth 16384

noncomputable section

namespace Cert.KernelIdeal.Steps

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (c : Dev nD)

/-- After the first step of a row tile. -/
theorem acc_first (t : Fin cfg0.N) (h0 : t.val % 14 = 0) :
    (outsAt0 m c t.val t.isLt).2 = k0_pay2 (iblk m c 0 t) (k0_pay1 (F := F)) (iblk m c 1 t) := by
  have h1 : ¬t.val % 14 = 13 := by omega
  rw [outsAt0_A m c t h0 h1]
  dsimp only
  exact Pieces.acc_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

/-- After any later step: over what the step before left. -/
theorem acc_next (t : Fin cfg0.N) (h0 : ¬t.val % 14 = 0) :
    (outsAt0 m c t.val t.isLt).2 = k0_pay2 (iblk m c 0 t) (outsAt0 m c (t.val - 1) (Nat.lt_of_le_of_lt (Nat.sub_le _ _) t.isLt)).2 (iblk m c 1 t) := by
  by_cases h1 : t.val % 14 = 13
  · rw [outsAt0_C m c t h0 h1]
    dsimp only
    exact Pieces.acc_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2
  · rw [outsAt0_B m c t h0 h1]
    dsimp only
    exact Pieces.acc_middle (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

/-- The step before position s + 1 is position s. -/
theorem prev_eq (t : Fin cfg0.N) (s : ℕ) (hs : s < cfg0.N) (hst : t.val = s + 1) :
    outsAt0 m c (t.val - 1) (Nat.lt_of_le_of_lt (Nat.sub_le _ _) t.isLt) = outsAt0 m c s hs := by
  have e : t.val - 1 = s := by omega
  subst e
  rfl

/-- After any later step, the step before named by its position. -/
theorem acc_succ (t : Fin cfg0.N) (s : ℕ) (hs : s < cfg0.N) (hst : t.val = s + 1) (h0 : ¬t.val % 14 = 0) :
    (outsAt0 m c t.val t.isLt).2 = k0_pay2 (iblk m c 0 t) (outsAt0 m c s hs).2 (iblk m c 1 t) :=
  (acc_next m c t h0).trans
    (congrArg (fun z : Vec F S2000x128 .f32 × Vec F S2000x1024 .f32 => k0_pay2 (iblk m c 0 t) z.2 (iblk m c 1 t))
      (prev_eq m c t s hs hst))

/-- After the last step of a row tile the output tile is the epilogue of the accumulator the step leaves. -/
theorem out_last (t : Fin cfg0.N) (h1 : t.val % 14 = 13) :
    (outsAt0 m c t.val t.isLt).1
      = k0_pay3 (outsAt0 m c t.val t.isLt).2 (iblk m c 2 t) (iblk m c 3 t) (iblk m c 4 t) (iblk m c 5 t) (iblk m c 6 t) := by
  have h0 : ¬t.val % 14 = 0 := by omega
  rw [acc_next m c t h0, outsAt0_C m c t h0 h1]
  dsimp only
  exact Pieces.out_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

end Cert.KernelIdeal.Steps

end
-- ==== Proof.Blocks.lean ====
/-
  The blocks the pipeline hands the kernel body at a grid position, read off the arrays.

  Position t of the 10 × 14 grid is row tile t / 14 and step t mod 14.  The x window's block there is rows
  2000·(t / 14) … of columns 896·(t mod 14) … of x; the first layer's weight window's block is rows 896·(t mod 14) … of
  the weights; the five other input windows never move and hold their whole arrays; the output window's block is rows
  2000·(t / 14) … of the result.
-/
import proofs.«116548_j31834297598413_2_alg».proof.Proof.Gen.KernelIdeal.Frame
import Idealize.ShloMosaic.Lib.Pipeline.Value
import Idealize.ShloMosaic.Lib.ValueIdx
import proofs.«116548_j31834297598413_2_alg».proof.Proof.Spec

noncomputable section

namespace Cert.KernelIdeal.Blocks

open Cert.KernelIdeal Cert.KernelIdeal.Gen Idealize.ShloMosaic Idealize.ShloMosaic.TcCoe Idealize.SL.Sem
open Idealize.ShloMosaic.ValueIdx

/-! ### Where each window's block sits, decided over the 140 grid positions -/

theorem idx0 : ∀ t : Fin cfg0.N, win0_0.index t 0 = t.val / 14 ∧ win0_0.index t 1 = t.val % 14 :=
  (by decide +kernel : ∀ t : Fin grid0.N, win0_0.index t 0 = t.val / 14 ∧ win0_0.index t 1 = t.val % 14)
theorem idx1 : ∀ t : Fin cfg0.N, win0_1.index t 0 = t.val % 14 ∧ win0_1.index t 1 = 0 :=
  (by decide +kernel : ∀ t : Fin grid0.N, win0_1.index t 0 = t.val % 14 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = t.val / 14 ∧ win0_7.index t 1 = 0 :=
  (by decide +kernel : ∀ t : Fin grid0.N, win0_7.index t 0 = t.val / 14 ∧ win0_7.index t 1 = 0)

variable (m : (ℓ : Loc nD τ sig) → Buf (Elt Ideal) ℓ) (c : Dev nD)

/-! ### The arrays as the call finds them, as matrices of extended reals -/

/-- x. -/
abbrev arrX : Cert.BoxHead.Mat 20000 12544 := V m c main_arg0
/-- The first layer's weights. -/
abbrev arrW1 : Cert.BoxHead.Mat 12544 1024 := V m c main_v0
/-- The first bias, one row. -/
abbrev arrB1 : Cert.BoxHead.Mat 1 1024 := V m c main_v1
/-- The second layer's weights. -/
abbrev arrW2 : Cert.BoxHead.Mat 1024 1024 := V m c main_v2
/-- The second bias, one row. -/
abbrev arrB2 : Cert.BoxHead.Mat 1 1024 := V m c main_v3
/-- The packed head weights. -/
abbrev arrWh : Cert.BoxHead.Mat 1024 128 := V m c main_v6
/-- The packed head bias, one row. -/
abbrev arrBh : Cert.BoxHead.Mat 1 128 := V m c main_v9

/-- The x tile at position t: entry (p, k) is x at row 2000·(t / 14) + p, column 896·(t mod 14) + k. -/
theorem x_apply (t : Fin cfg0.N) (p : Fin 2000) (k : Fin 896) (r : Fin 20000) (v : Fin 12544)
    (hr : r.val = t.val / 14 * 2000 + p.val) (hv : v.val = t.val % 14 * 896 + k.val) :
    (iblk m c 0 t : S2000x896.Idx → EReal) (ix2 p k) = (V m c main_arg0 : S20000x12544.Idx → EReal) (ix2 r v) := by
  have hi := idx0 t
  unfold iblk
  rw [View.read_apply]
  refine congrArg (V m c main_arg0 : S20000x12544.Idx → EReal) (funext fun a => Fin.ext ?_)
  match a with
  | ⟨0, _⟩ => show win0_0.index t 0 * 2000 + 1 * p.val = r.val; rw [hi.1, hr]; omega
  | ⟨1, _⟩ => show win0_0.index t 1 * 896 + 1 * k.val = v.val; rw [hi.2, hv]; omega

/-- The first layer's weight tile at position t: entry (k, q) is the weights at row 896·(t mod 14) + k, column q. -/
theorem w1_apply (t : Fin cfg0.N) (k : Fin 896) (q : Fin 1024) (v : Fin 12544) (hv : v.val = t.val % 14 * 896 + k.val) :
    (iblk m c 1 t : S896x1024.Idx → EReal) (ix2 k q) = (V m c main_v0 : S12544x1024.Idx → EReal) (ix2 v q) := by
  have hi := idx1 t
  unfold iblk
  rw [View.read_apply]
  refine congrArg (V m c main_v0 : S12544x1024.Idx → EReal) (funext fun a => Fin.ext ?_)
  match a with
  | ⟨0, _⟩ => show win0_1.index t 0 * 896 + 1 * k.val = v.val; rw [hi.1, hv]; omega
  | ⟨1, _⟩ => show win0_1.index t 1 * 1024 + 1 * q.val = q.val; rw [hi.2]; omega

/-- The first bias row, whole. -/
theorem blk2 (t : Fin cfg0.N) : (iblk m c 2 t : S1x1024.Idx → EReal) = V m c main_v1 := by
  have hi := idx2 t
  funext y
  unfold iblk
  rw [View.read_apply]
  refine congrArg (V m c main_v1 : S1x1024.Idx → EReal) (funext fun a => Fin.ext ?_)
  match a with
  | ⟨0, _⟩ => show win0_2.index t 0 * 1 + 1 * (y 0).val = (y 0).val; rw [hi.1]; omega
  | ⟨1, _⟩ => show win0_2.index t 1 * 1024 + 1 * (y 1).val = (y 1).val; rw [hi.2]; omega

/-- The second layer's weights, whole. -/
theorem blk3 (t : Fin cfg0.N) : (iblk m c 3 t : S1024x1024.Idx → EReal) = V m c main_v2 := by
  have hi := idx3 t
  funext y
  unfold iblk
  rw [View.read_apply]
  refine congrArg (V m c main_v2 : S1024x1024.Idx → EReal) (funext fun a => Fin.ext ?_)
  match a with
  | ⟨0, _⟩ => show win0_3.index t 0 * 1024 + 1 * (y 0).val = (y 0).val; rw [hi.1]; omega
  | ⟨1, _⟩ => show win0_3.index t 1 * 1024 + 1 * (y 1).val = (y 1).val; rw [hi.2]; omega

/-- The second bias row, whole. -/
theorem blk4 (t : Fin cfg0.N) : (iblk m c 4 t : S1x1024.Idx → EReal) = V m c main_v3 := by
  have hi := idx4 t
  funext y
  unfold iblk
  rw [View.read_apply]
  refine congrArg (V m c main_v3 : S1x1024.Idx → EReal) (funext fun a => Fin.ext ?_)
  match a with
  | ⟨0, _⟩ => show win0_4.index t 0 * 1 + 1 * (y 0).val = (y 0).val; rw [hi.1]; omega
  | ⟨1, _⟩ => show win0_4.index t 1 * 1024 + 1 * (y 1).val = (y 1).val; rw [hi.2]; omega

/-- The packed head weights, whole. -/
theorem blk5 (t : Fin cfg0.N) : (iblk m c 5 t : S1024x128.Idx → EReal) = V m c main_v6 := by
  have hi := idx5 t
  funext y
  unfold iblk
  rw [View.read_apply]
  refine congrArg (V m c main_v6 : S1024x128.Idx → EReal) (funext fun a => Fin.ext ?_)
  match a with
  | ⟨0, _⟩ => show win0_5.index t 0 * 1024 + 1 * (y 0).val = (y 0).val; rw [hi.1]; omega
  | ⟨1, _⟩ => show win0_5.index t 1 * 128 + 1 * (y 1).val = (y 1).val; rw [hi.2]; omega

/-- The packed head bias row, whole. -/
theorem blk6 (t : Fin cfg0.N) : (iblk m c 6 t : S1x128.Idx → EReal) = V m c main_v9 := by
  have hi := idx6 t
  funext y
  unfold iblk
  rw [View.read_apply]
  refine congrArg (V m c main_v9 : S1x128.Idx → EReal) (funext fun a => Fin.ext ?_)
  match a with
  | ⟨0, _⟩ => show win0_6.index t 0 * 1 + 1 * (y 0).val = (y 0).val; rw [hi.1]; omega
  | ⟨1, _⟩ => show win0_6.index t 1 * 128 + 1 * (y 1).val = (y 1).val; rw [hi.2]; omega

end Cert.KernelIdeal.Blocks

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.Pay.lean ====
/-
  The kernel body's arithmetic read at one entry, on the extended reals.

  One step of the first layer's accumulation adds to the accumulator's entry (p, q) the product of row p of the current
  2000 × 896 tile of x with column q of the current 896 × 1024 tile of the weights.  The last step's epilogue turns the
  finished accumulator into the head: add the bias row, rectify, multiply by the second layer's weights, add its bias
  row, rectify, multiply by the 1024 × 128 head weights and add the head's bias row.  A change of float format is the
  identity here, and a matrix product into a zero accumulator is the plain sum of products.
-/
import proofs.«116548_j31834297598413_2_alg».proof.Proof.Gen.KernelIdeal.Skeleton
import proofs.«116548_j31834297598413_2_alg».proof.Proof.LibDot
import proofs.«116548_j31834297598413_2_alg».proof.Proof.Spec
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.BoxHead
open scoped BigOperators

/-- The store that opens an accumulation writes the zero word everywhere. -/
theorem pay1_apply (j : S2000x1024.Idx) : k0_pay1 (F := Ideal) j = zero := by
  unfold k0_pay1
  simp only [shapeCast_self]
  rfl

/-- One accumulation step at entry (p, q). -/
theorem pay2_apply (v3 : FVec Ideal S2000x896 .f32) (v5 : FVec Ideal S2000x1024 .f32) (v6 : FVec Ideal S896x1024 .bf16)
    (p : Fin 2000) (q : Fin 1024) :
    k0_pay2 (F := Ideal) v3 v5 v6 (ix2 p q) = v5 (ix2 p q) + ∑ k : Fin 896, v3 (ix2 p k) * v6 (ix2 k q) := by
  unfold k0_pay2
  simp only [shapeCast_self]
  exact congrArg (fun z : EReal => v5 (ix2 p q) + z)
    (Cert.LibDot.matmul_zero_apply (φ₁ := .bf16) (φ₂ := .bf16) Facts₀.dot_S2000x896_S896x1024_S2000x1024_1_0_0_1_n_n_wf none
      (truncf .bf16 v3 bitsLt_bf16_f32) v6 p q)

/-- A bias row added to every row, rectified: entry (p, k). -/
theorem act_apply (a : FVec Ideal S2000x1024 .f32) (b : FVec Ideal S1x1024 .f32) (p : Fin 2000) (k : Fin 1024) :
    (truncf .bf16 (maximumf (addf a (broadcastTo S2000x1024 b broadcasts_S1x1024_S2000x1024))
      (broadcast S2000x1024 (FloatOps.ofBits .f32 0x00000000#32))) bitsLt_bf16_f32 : FVec Ideal S2000x1024 .bf16) (ix2 p k)
      = relu (a (ix2 p k) + b (ix2 (0 : Fin 1) k)) := by
  show max ((a (ix2 p k) : EReal) + broadcastTo S2000x1024 b broadcasts_S1x1024_S2000x1024 (ix2 p k)) zero = _
  unfold relu
  exact congrArg (fun z : EReal => max (a (ix2 p k) + z) zero) (broadcastTo_1b_ab_apply b _ p k)

/-- The epilogue at entry (p, q): the head of width 128 of the two hidden layers of accumulator row p. -/
theorem pay3_apply (v16 : FVec Ideal S2000x1024 .f32) (v17 : FVec Ideal S1x1024 .f32) (v24 : FVec Ideal S1024x1024 .bf16)
    (v27 : FVec Ideal S1x1024 .f32) (v34 : FVec Ideal S1024x128 .bf16) (v37 : FVec Ideal S1x128 .f32)
    (p : Fin 2000) (q : Fin 128) :
    k0_pay3 (F := Ideal) v16 v17 v24 v27 v34 v37 (ix2 p q)
      = layer (fun j => relu (layer (fun k => relu (v16 (ix2 p k) + v17 (ix2 (0 : Fin 1) k))) v24
            (fun j => v27 (ix2 (0 : Fin 1) j)) j)) v34 (fun c => v37 (ix2 (0 : Fin 1) c)) q := by
  unfold k0_pay3
  simp only [shapeCast_self]
  unfold layer
  refine congrArg₂ (fun a b : EReal => a + b) ?_ (broadcastTo_1b_ab_apply v37 _ p q)
  refine (Cert.LibDot.matmul_zero_apply (φ₁ := .bf16) (φ₂ := .bf16)
    Facts₀.dot_S2000x1024_S1024x128_S2000x128_1_0_0_1_n_n_wf none _ v34 p q).trans ?_
  refine Finset.sum_congr rfl fun j _ => congrArg (fun a : EReal => a * v34 (ix2 j q)) ?_
  refine (act_apply _ v27 p j).trans ?_
  refine congrArg (fun a : EReal => relu (a + v27 (ix2 (0 : Fin 1) j))) ?_
  refine (Cert.LibDot.matmul_zero_apply (φ₁ := .bf16) (φ₂ := .bf16)
    Facts₀.dot_S2000x1024_S1024x1024_S2000x1024_1_0_0_1_n_n_wf none _ v24 p j).trans ?_
  refine Finset.sum_congr rfl fun k _ => congrArg (fun a : EReal => a * v24 (ix2 k j)) ?_
  exact act_apply v16 v17 p k

end Cert.KernelIdeal.Pay

end
-- ==== Proof.Acc.lean ====
/-
  The accumulator after every grid step: a partial sum of the first layer's products.

  Fix an entry (p, q) of the accumulator and let r be the row of x that row p of the current row tile is.  Number the
  12544 products  x (r, v) · w1 (v, q)  by v.  Step s of the tile (s = 0 … 13) adds the 896 products numbered
  896·s … 896·s + 895, the first step to a cleared accumulator: after step s the entry is zero plus the first
  896·(s + 1) products, and after the last step zero plus all of them, which is their sum.  Only the order of a sum
  changes, so nothing is asked of the entries.
-/
import proofs.«116548_j31834297598413_2_alg».proof.Proof.Steps
import proofs.«116548_j31834297598413_2_alg».proof.Proof.Blocks
import proofs.«116548_j31834297598413_2_alg».proof.Proof.Pay

set_option maxRecDepth 16384

noncomputable section

namespace Cert.KernelIdeal.Acc

open Cert.KernelIdeal Cert.KernelIdeal.Gen Idealize.ShloMosaic Idealize.ShloMosaic.TcCoe Idealize.SL.Sem
open Idealize.ShloMosaic.ValueIdx Cert.BoxHead
open scoped BigOperators

variable (m : (ℓ : Loc nD τ sig) → Buf (Elt Ideal) ℓ) (c : Dev nD)

/-- Product number v of row r of x against column q of the first layer's weights (nothing past the last). -/
def term (r : Fin 20000) (q : Fin 1024) (v : ℕ) : EReal :=
  if h : v < 12544 then Blocks.arrX m c (ix2 r ⟨v, h⟩) * Blocks.arrW1 m c (ix2 ⟨v, h⟩ q) else 0

/-- One step's product of its two tiles is that step's 896 numbered products: the tiles are x0 and x1, whose entries
    (p, k) and (k, q) are x at (r, 896·s + k) and the weights at (896·s + k, q). -/
theorem step_sum (s : ℕ) (hs : s < 14) (x0 : FVec Ideal S2000x896 .f32) (x1 : FVec Ideal S896x1024 .bf16)
    (p : Fin 2000) (q : Fin 1024) (r : Fin 20000)
    (h0 : ∀ (k : Fin 896) (v : Fin 12544), v.val = s * 896 + k.val → x0 (ix2 p k) = Blocks.arrX m c (ix2 r v))
    (h1 : ∀ (k : Fin 896) (v : Fin 12544), v.val = s * 896 + k.val → x1 (ix2 k q) = Blocks.arrW1 m c (ix2 v q)) :
    ∑ k : Fin 896, x0 (ix2 p k) * x1 (ix2 k q) = ∑ k ∈ Finset.range 896, term m c r q (s * 896 + k) := by
  rw [Finset.sum_range]
  refine Finset.sum_congr rfl fun k _ => ?_
  have hlt : s * 896 + k.val < 12544 := by have := k.isLt; omega
  unfold term
  rw [dif_pos hlt, h0 k ⟨_, hlt⟩ rfl, h1 k ⟨_, hlt⟩ rfl]

/-- Row p of a 2000 × 896 tile against column q of an 896 × 1024 tile. -/
def dotRow (x0 : FVec Ideal S2000x896 .f32) (x1 : FVec Ideal S896x1024 .bf16) (p : Fin 2000) (q : Fin 1024) : EReal :=
  ∑ k : Fin 896, x0 (ix2 p k) * x1 (ix2 k q)

/-- The step's two tiles at grid position t. -/
theorem step_sum_at (t : Fin cfg0.N) (p : Fin 2000) (q : Fin 1024) (r : Fin 20000) (hr : r.val = t.val / 14 * 2000 + p.val) :
    dotRow (iblk m c 0 t) (iblk m c 1 t) p q = ∑ k ∈ Finset.range 896, term m c r q (t.val % 14 * 896 + k) :=
  step_sum m c (t.val % 14) (Nat.mod_lt _ (by decide)) (iblk m c 0 t) (iblk m c 1 t) p q r
    (fun k v hv => Blocks.x_apply m c t p k r v hr hv) (fun k v hv => Blocks.w1_apply m c t k q v hv)

/-- The first 896·(a + 1) terms are the first 896·a and the next 896. -/
theorem sum_step (f : ℕ → EReal) (a : ℕ) :
    zero + ∑ v ∈ Finset.range ((a + 1) * 896), f v
      = (zero + ∑ v ∈ Finset.range (a * 896), f v) + ∑ k ∈ Finset.range 896, f (a * 896 + k) := by
  rw [Nat.add_mul, Nat.one_mul, Finset.sum_range_add, add_assoc]

/-- THE ACCUMULATOR after position n, at entry (p, q): zero plus the products numbered below 896·(n mod 14 + 1). -/
theorem acc_eq : ∀ (n : ℕ) (hn : n < cfg0.N) (p : Fin 2000) (q : Fin 1024) (r : Fin 20000),
    r.val = n / 14 * 2000 + p.val →
    ((outsAt0 m c n hn).2 : S2000x1024.Idx → EReal) (ix2 p q)
      = zero + ∑ v ∈ Finset.range ((n % 14 + 1) * 896), term m c r q v := by
  intro n
  induction n with
  | zero =>
    intro hn p q r hr
    refine (congrFun (Steps.acc_first m c ⟨0, hn⟩ (Nat.zero_mod _)) (ix2 p q)).trans ?_
    refine (Pay.pay2_apply (iblk m c 0 ⟨0, hn⟩) (k0_pay1 (F := Ideal)) (iblk m c 1 ⟨0, hn⟩) p q).trans ?_
    refine (congrArg₂ (fun a b : EReal => a + b) (Pay.pay1_apply (ix2 p q)) (step_sum_at m c ⟨0, hn⟩ p q r hr)).trans ?_
    dsimp only
    simp only [Nat.zero_mod, Nat.zero_mul, Nat.zero_add, Nat.one_mul]
  | succ n ih =>
    intro hn p q r hr
    by_cases h0 : (n + 1) % 14 = 0
    · refine (congrFun (Steps.acc_first m c ⟨n + 1, hn⟩ h0) (ix2 p q)).trans ?_
      refine (Pay.pay2_apply (iblk m c 0 ⟨n + 1, hn⟩) (k0_pay1 (F := Ideal)) (iblk m c 1 ⟨n + 1, hn⟩) p q).trans ?_
      refine (congrArg₂ (fun a b : EReal => a + b) (Pay.pay1_apply (ix2 p q)) (step_sum_at m c ⟨n + 1, hn⟩ p q r hr)).trans ?_
      dsimp only
      rw [h0]
      simp only [Nat.zero_mul, Nat.zero_add, Nat.one_mul]
    · have hn' : n < cfg0.N := Nat.lt_of_succ_lt hn
      have hr' : r.val = n / 14 * 2000 + p.val := by omega
      refine (congrFun (Steps.acc_succ m c ⟨n + 1, hn⟩ n hn' rfl h0) (ix2 p q)).trans ?_
      refine (Pay.pay2_apply (iblk m c 0 ⟨n + 1, hn⟩) (outsAt0 m c n hn').2 (iblk m c 1 ⟨n + 1, hn⟩) p q).trans ?_
      refine (congrArg₂ (fun a b : EReal => a + b) (ih hn' p q r hr') (step_sum_at m c ⟨n + 1, hn⟩ p q r hr)).trans ?_
      dsimp only
      have ha : (n + 1) % 14 = n % 14 + 1 := by omega
      rw [ha]
      exact (sum_step _ (n % 14 + 1)).symm

/-- All 12544 numbered products, from zero, are the row of x against the column of the weights. -/
theorem all_terms (r : Fin 20000) (q : Fin 1024) :
    zero + ∑ v ∈ Finset.range 12544, term m c r q v
      = ∑ v : Fin 12544, Blocks.arrX m c (ix2 r v) * Blocks.arrW1 m c (ix2 v q) := by
  rw [show (zero : EReal) = 0 from Ideal.ofBits_zero_f32, zero_add, Finset.sum_range]
  refine Finset.sum_congr rfl fun v _ => ?_
  unfold term
  rw [dif_pos v.isLt]

/-- After the last step of a row tile the accumulator's entry (p, q) is the whole sum. -/
theorem acc_done (t : Fin cfg0.N) (h13 : t.val % 14 = 13) (p : Fin 2000) (q : Fin 1024) (r : Fin 20000)
    (hr : r.val = t.val / 14 * 2000 + p.val) :
    ((outsAt0 m c t.val t.isLt).2 : S2000x1024.Idx → EReal) (ix2 p q)
      = ∑ v : Fin 12544, Blocks.arrX m c (ix2 r v) * Blocks.arrW1 m c (ix2 v q) := by
  rw [acc_eq m c t.val t.isLt p q r hr, h13]
  exact all_terms m c r q

end Cert.KernelIdeal.Acc

end
-- ==== Proof.Final.lean ====
/-
  The array the kernel's call leaves: the packed head of width 128 of the arrays the call finds.

  After the last step of row tile i the body has turned the finished accumulator — whose entry (p, k) is the full sum of
  products of row 2000·i + p of x with column k of the first layer's weights — into the output tile: row p of the tile
  is the packed head of row 2000·i + p.  That step is the one position of the tile at which the output window is
  written back, its block is rows 2000·i … 2000·i + 1999 of the result, and the ten tiles cover every row.
-/
import proofs.«116548_j31834297598413_2_alg».proof.Proof.Acc

set_option maxRecDepth 16384

noncomputable section

namespace Cert.KernelIdeal.Final

open Cert.KernelIdeal Cert.KernelIdeal.Gen Idealize.ShloMosaic Idealize.ShloMosaic.TcCoe Idealize.SL.Sem
open Idealize.ShloMosaic.ValueIdx Cert.BoxHead
open Idealize.ShloMosaic.Pipeline (Dat)
open scoped BigOperators

variable (m : (ℓ : Loc nD τ sig) → Buf (Elt Ideal) ℓ) (c : Dev nD)

/-- The packed head of the arrays as the call finds them: the biases are the one rows the host laid out. -/
def G : S20000x128.Idx → EReal :=
  outArr (Blocks.arrX m c) (Blocks.arrW1 m c) (fun j => Blocks.arrB1 m c (ix2 (0 : Fin 1) j)) (Blocks.arrW2 m c)
    (fun j => Blocks.arrB2 m c (ix2 (0 : Fin 1) j)) (Blocks.arrWh m c) (fun q => Blocks.arrBh m c (ix2 (0 : Fin 1) q))

/-- The output tile after the last step of a row tile, at entry (p, q): the packed head at row r = 2000·(t / 14) + p. -/
theorem tile_apply (t : Fin cfg0.N) (h13 : t.val % 14 = 13) (p : Fin 2000) (q : Fin 128) (r : Fin 20000)
    (hr : r.val = t.val / 14 * 2000 + p.val) :
    ((outsAt0 m c t.val t.isLt).1 : S2000x128.Idx → EReal) (ix2 p q) = G m c (ix2 r q) := by
  refine (congrFun (Steps.out_last m c t h13) (ix2 p q)).trans ?_
  refine (Pay.pay3_apply (outsAt0 m c t.val t.isLt).2 (iblk m c 2 t) (iblk m c 3 t) (iblk m c 4 t) (iblk m c 5 t)
    (iblk m c 6 t) p q).trans ?_
  rw [Blocks.blk2 m c t, Blocks.blk3 m c t, Blocks.blk4 m c t, Blocks.blk5 m c t, Blocks.blk6 m c t]
  have hacc : ∀ k : Fin 1024, ((outsAt0 m c t.val t.isLt).2 : S2000x1024.Idx → EReal) (ix2 p k)
      = ∑ v : Fin 12544, Blocks.arrX m c (ix2 r v) * Blocks.arrW1 m c (ix2 v k) :=
    fun k => Acc.acc_done m c t h13 p k r hr
  simp only [hacc]
  rfl

/-- The same for the whole tile. -/
theorem tile_eq (t : Fin cfg0.N) (h13 : t.val % 14 = 13) (hlt : ∀ y : S2000x128.Idx, t.val / 14 * 2000 + (y 0).val < 20000) :
    ((outsAt0 m c t.val t.isLt).1 : S2000x128.Idx → EReal)
      = fun y => G m c (ix2 (⟨t.val / 14 * 2000 + (y 0).val, hlt y⟩ : Fin 20000) (⟨(y 1).val, (y 1).isLt⟩ : Fin 128)) := by
  funext y
  obtain ⟨p, q, rfl⟩ : ∃ (p : Fin 2000) (q : Fin 128), y = ix2 p q := ⟨y 0, y 1, eq_ix2 y⟩
  exact tile_apply m c t h13 p q ⟨_, hlt (ix2 p q)⟩ rfl

/-- WHAT A WRITING POSITION WRITES BACK is its block of the packed head. -/
theorem flushed_eq (t : Fin cfg0.N) (hf : (cfg0.win 7).flush t = true) :
    (dats m 0 c).flushed 7 t = ((cfg0.win 7).blk t).view.read (Elt Ideal) (G m c) := by
  have h13 : t.val % 14 = 13 := (flush0_7 t).mp hf
  have hi := Blocks.idx7 t
  have hN : cfg0.N = 140 := N_0
  have hlt : ∀ y : S2000x128.Idx, t.val / 14 * 2000 + (y 0).val < 20000 := fun y => by
    have h1 : (y 0).val < 2000 := (y 0).isLt
    have h2 := t.isLt
    omega
  show (cfg0.win 7).cut (grid0.coords t) ((dats m 0 c).after 7 t) = _
  rw [after0_7, tile_eq m c t h13 hlt]
  funext j
  have hj0 : (j 0).val < 2000 := (j 0).isLt
  have hj1 : (j 1).val < 128 := (j 1).isLt
  show G m c (ix2 (⟨t.val / 14 * 2000 + (j 0).val, by have := t.isLt; omega⟩ : Fin 20000) (⟨(j 1).val, hj1⟩ : Fin 128))
    = G m c (((cfg0.win 7).blk t).view.emb j)
  refine congrArg (G m c) (funext fun a => Fin.ext ?_)
  match a with
  | ⟨0, _⟩ => show t.val / 14 * 2000 + (j 0).val = win0_7.index t 0 * 2000 + 1 * (j 0).val; rw [hi.1]; omega
  | ⟨1, _⟩ => show (j 1).val = win0_7.index t 1 * 128 + 1 * (j 1).val; rw [hi.2]; omega

/-- An index of the result is in position t's block iff each coordinate is in the block's range on its axis. -/
theorem mem_blk (t : Fin cfg0.N) (i : S20000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v10).slice (win0_7.rect t)).set ↔ _
  rw [View.set_slice_whole, Rect.mem_set_unit]
  exact Iff.rfl

/-- THE RESULT ARRAY of the call: the packed head, every row written by the last step of its tile. -/
theorem final : (dats m 0 c).arrAt 7 cfg0.N = G m c := by
  have hN : cfg0.N = 140 := N_0
  refine (dats m 0 c).arrAt_eq_of_cover 7 (G m c) (flushed_eq m c) fun i => ?_
  have hi0 : (i 0).val < 20000 := (i 0).isLt
  have hi1 : (i 1).val < 128 := (i 1).isLt
  let t : Fin cfg0.N := ⟨(i 0).val / 2000 * 14 + 13, by omega⟩
  have ht : t.val = (i 0).val / 2000 * 14 + 13 := rfl
  have hidx := Blocks.idx7 t
  refine ⟨t, (flush0_7 t).mpr (by omega), ?_⟩
  rw [mem_blk]
  intro a
  match a with
  | ⟨0, _⟩ =>
    show win0_7.index t 0 * 2000 ≤ (i 0).val ∧ (i 0).val < win0_7.index t 0 * 2000 + 2000
    rw [hidx.1]; omega
  | ⟨1, _⟩ =>
    show win0_7.index t 1 * 128 ≤ (i 1).val ∧ (i 1).val < win0_7.index t 1 * 128 + 128
    rw [hidx.2]; omega

end Cert.KernelIdeal.Final

end
-- ==== Proof.Result.lean ====
/-
  The kernel program's run, read: its two results are two column ranges of the packed head.

  After the call the host cuts columns 0 … 3 of the call's result (the class scores) and columns 4 … 15 (the box
  offsets).  The call's result is the packed head of the arrays the call finds; the argument arrays end as they began.
-/
import proofs.«116548_j31834297598413_2_alg».proof.Proof.Final
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The first result after the host's cut: columns 0 … 3 of the packed head. -/
theorem tail_scores (c : Dev nD) : Pipeline.afterTail₀ cfgs (dats m) 0 (V0 m) [hostOps1] c main_v11
    = extractStridedSlice S20000x4 ![0, 0] (Final.G m c) slices_S20000x128_S20000x4_0_0 := by
  unfold Pipeline.afterTail₀
  show StableHlo.after hostOps1 _ (Proc.devRef .tc main_v11) = _
  after_results
  exact congrArg (fun a => extractStridedSlice S20000x4 ![0, 0] a slices_S20000x128_S20000x4_0_0)
    ((Pipeline.withArrays_arr spec0 launch0.win.arr_inj c (V0 m c) (fun w => (dats m 0 c).arrAt w (cfgs 0).N) 7).trans (Final.final m c))

/-- The second result: columns 4 … 15. -/
theorem tail_boxes (c : Dev nD) : Pipeline.afterTail₀ cfgs (dats m) 0 (V0 m) [hostOps1] c main_v12
    = extractStridedSlice S20000x12 ![0, 4] (Final.G m c) slices_S20000x128_S20000x12_0_4 := by
  unfold Pipeline.afterTail₀
  show StableHlo.after hostOps1 _ (Proc.devRef .tc main_v12) = _
  after_results
  exact congrArg (fun a => extractStridedSlice S20000x12 ![0, 4] a slices_S20000x128_S20000x12_0_4)
    ((Pipeline.withArrays_arr spec0 launch0.win.arr_inj c (V0 m c) (fun w => (dats m 0 c).arrAt w (cfgs 0).N) 7).trans (Final.final m c))

/-- Every weakly fair execution ends with the two results at the two cuts of the packed head and the arguments unchanged. -/
theorem run : θ_run defs (onTc (τ := τ) (main (F := Ideal))) ⟨m, fun _ => 0, ρ⟩ (fun r => ∀ c : Dev nD,
      r.2.mem ((c.tc : Thread nD τ).loc main_v11) = extractStridedSlice S20000x4 ![0, 0] (Final.G m c) slices_S20000x128_S20000x4_0_0
      ∧ r.2.mem ((c.tc : Thread nD τ).loc main_v12) = extractStridedSlice S20000x12 ![0, 4] (Final.G m c) slices_S20000x128_S20000x12_0_4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_v11 (Pipeline.mem_restRefs_of main_v11 (by decide) (by decide))).trans (tail_scores m c),
      ((h c).2 main_v12 (Pipeline.mem_restRefs_of main_v12 (by decide) (by decide))).trans (tail_boxes m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.KernelIdeal.Result

end
-- ==== Proof.LibConcatCols.lean ====
/-
  Two matrices with the same number of rows laid side by side (a concatenation along axis 1) read at an entry:
  entry (p, c) of the joined n × t matrix is entry (p, c) of the left n × a piece when c < a, and entry (p, c - a)
  of the right n × b piece otherwise (a + b = t). A consequence: if row p of two pieces agrees, column by column,
  with row p' of two other pieces of the same widths, then row p of the first join is row p' of the second.
-/
import Idealize.ShloMosaic.Lib.Pipeline.Value
import Idealize.ShloMosaic.Lib.ValueIdx

noncomputable section

namespace Cert.LibConcatCols

open Idealize.ShloMosaic Idealize.ShloMosaic.ValueIdx

variable {α : Type} {n a b t : Nat}

/-- Entry (p, c) of two pieces joined along the columns: the left piece's entry when c is one of its columns,
    otherwise the right piece's entry, a columns further left. -/
theorem concat_cols_apply (hab : a + b = t)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, t]⟩ 1) (p : Fin n) (c : Fin t) :
    concatenate (⟨2, ![n, t]⟩ : Shape) 1 [⟨⟨2, ![n, a]⟩, x⟩, ⟨⟨2, ![n, b]⟩, y⟩] h (ix2 p c)
      = if hc : c.val < a then x (ix2 p ⟨c.val, hc⟩) else y (ix2 p ⟨c.val - a, by omega⟩) := by
  split
  · next hc =>
    exact concatenate_pair_apply_left (1 : Fin 2) x y h (ix2 p c) rfl (ix2 p ⟨c.val, hc⟩)
      (fun d => match d with | ⟨0, _⟩ => rfl | ⟨1, _⟩ => rfl)
  · next hc =>
    exact concatenate_pair_apply_right (1 : Fin 2) x y h (ix2 p c) rfl rfl (ix2 p ⟨c.val - a, by omega⟩)
      (fun d hd => match d, hd with
        | ⟨0, _⟩, _ => rfl
        | ⟨1, _⟩, hd => absurd rfl hd)
      (by show (c.val - a) + a = c.val; omega)

/-- Rows that agree piece by piece agree after the pieces are joined: if row p of x is row p' of x' and row p of y is
    row p' of y', then row p of [x | y] is row p' of [x' | y']. -/
theorem concat_cols_row_congr {n' : Nat} (hab : a + b = t)
    (x : (⟨2, ![n, a]⟩ : Shape).Idx → α) (y : (⟨2, ![n, b]⟩ : Shape).Idx → α)
    (x' : (⟨2, ![n', a]⟩ : Shape).Idx → α) (y' : (⟨2, ![n', b]⟩ : Shape).Idx → α)
    (h : Shape.Concatenates [(⟨2, ![n, a]⟩ : Shape), ⟨2, ![n, b]⟩] ⟨2, ![n, t]⟩ 1)
    (h' : Shape.Concatenates [(⟨2, ![n', a]⟩ : Shape), ⟨2, ![n', b]⟩] ⟨2, ![n', t]⟩ 1)
    (p : Fin n) (p' : Fin n')
    (hx : ∀ c : Fin a, x (ix2 p c) = x' (ix2 p' c)) (hy : ∀ c : Fin b, y (ix2 p c) = y' (ix2 p' c)) (c : Fin t) :
    concatenate (⟨2, ![n, t]⟩ : Shape) 1 [⟨⟨2, ![n, a]⟩, x⟩, ⟨⟨2, ![n, b]⟩, y⟩] h (ix2 p c)
      = concatenate (⟨2, ![n', t]⟩ : Shape) 1 [⟨⟨2, ![n', a]⟩, x'⟩, ⟨⟨2, ![n', b]⟩, y'⟩] h' (ix2 p' c) := by
  rw [concat_cols_apply hab, concat_cols_apply hab]
  split
  · exact hx _
  · exact hy _

end Cert.LibConcatCols
-- ==== Proof.LibConcatVec.lean ====
/-
  Two vectors laid end to end (a concatenation along the only axis) read at an entry: entry c of the joined
  length-t vector is entry c of the left length-a piece when c < a, and entry c - a of the right length-b piece
  otherwise (a + b = t).
-/
import Idealize.ShloMosaic.Lib.Pipeline.Value
import Idealize.ShloMosaic.Lib.ValueIdx

noncomputable section

namespace Cert.LibConcatVec

open Idealize.ShloMosaic Idealize.ShloMosaic.ValueIdx

variable {α : Type} {a b t : Nat}

/-- Entry c of two vectors joined end to end: the left piece's entry when c is one of its positions, otherwise the
    right piece's entry, a positions further left. -/
theorem concat_vec_apply (hab : a + b = t)
    (x : (⟨1, ![a]⟩ : Shape).Idx → α) (y : (⟨1, ![b]⟩ : Shape).Idx → α)
    (h : Shape.Concatenates [(⟨1, ![a]⟩ : Shape), ⟨1, ![b]⟩] ⟨1, ![t]⟩ 0) (c : Fin t) :
    concatenate (⟨1, ![t]⟩ : Shape) 0 [⟨⟨1, ![a]⟩, x⟩, ⟨⟨1, ![b]⟩, y⟩] h (ix1 c)
      = if hc : c.val < a then x (ix1 ⟨c.val, hc⟩) else y (ix1 ⟨c.val - a, by omega⟩) := by
  split
  · next hc =>
    exact concatenate_pair_apply_left (0 : Fin 1) x y h (ix1 c) rfl (ix1 ⟨c.val, hc⟩)
      (fun d => match d with | ⟨0, _⟩ => rfl)
  · next hc =>
    exact concatenate_pair_apply_right (0 : Fin 1) x y h (ix1 c) rfl rfl (ix1 ⟨c.val - a, by omega⟩)
      (fun d hd => match d, hd with
        | ⟨0, _⟩, hd => absurd rfl hd)
      (by show (c.val - a) + a = c.val; omega)

end Cert.LibConcatVec
-- ==== Proof.Prefix.lean ====
/-
  What the kernel's call finds in the arrays the host prepared for it, on the extended reals.

  Before the call the host narrows the two hidden layers' weights to bf16 (the identity on the extended reals), lays
  the two bias vectors out as one-row matrices, and packs the two heads into one: the class weights (4 columns) and the
  box weights (12 columns) side by side, padded with zero columns to width 128, narrowed; and likewise the two head
  biases end to end, padded to length 128, as one row.  So column c of the packed weights is column c of the class
  weights for c < 4 and column c − 4 of the box weights for 4 ≤ c < 16, and the same for the packed bias.
-/
import proofs.«116548_j31834297598413_2_alg».proof.Proof.Gen.KernelIdeal.Frame
import proofs.«116548_j31834297598413_2_alg».proof.Proof.LibConcatCols
import proofs.«116548_j31834297598413_2_alg».proof.Proof.LibConcatVec
import Idealize.ShloMosaic.Lib.Pipeline.Value
import Idealize.ShloMosaic.Lib.StableHlo.Run
import Idealize.ShloMosaic.Lib.KernelVsHost
import Idealize.ShloMosaic.Lib.ValueLayout
import Idealize.ShloMosaic.Lib.Tactic

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-- The host operations before the call, composed, at one buffer. -/
local macro "host_prefix" : tactic => `(tactic| (
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl))

/-- The first layer's weights, narrowed: unchanged. -/
theorem V_w1 : (V m c main_v0 : S12544x1024.Idx → EReal) = m ((c : Thread nD τ).loc main_arg1) := by
  host_prefix

/-- The second layer's weights, narrowed: unchanged. -/
theorem V_w2 : (V m c main_v2 : S1024x1024.Idx → EReal) = m ((c : Thread nD τ).loc main_arg3) := by
  host_prefix

/-- The first bias as one row. -/
theorem V_b1 : (V m c main_v1 : S1x1024.Idx → EReal)
    = shapeCast S1x1024 (m ((c : Thread nD τ).loc main_arg2)) shapeCasts_S1024_S1x1024 := by
  host_prefix

/-- The second bias as one row. -/
theorem V_b2 : (V m c main_v3 : S1x1024.Idx → EReal)
    = shapeCast S1x1024 (m ((c : Thread nD τ).loc main_arg4)) shapeCasts_S1024_S1x1024 := by
  host_prefix

/-- The packed head weights. -/
theorem V_wch : (V m c main_v6 : S1024x128.Idx → EReal)
    = pad S1024x128 ![0, 0] ![0, 112] ![0, 0]
        (concatenate S1024x16 1 [⟨S1024x4, m ((c : Thread nD τ).loc main_arg5)⟩, ⟨S1024x12, m ((c : Thread nD τ).loc main_arg7)⟩]
          concatenates_S1024x4_S1024x12_S1024x16_d1)
        (sitofp (F := Ideal) .f32 (constantI S_ 32 0#32)) pads_S1024x16_S1024x128_000_01120 h_S_ := by
  host_prefix

/-- The packed head bias as one row. -/
theorem V_bch : (V m c main_v9 : S1x128.Idx → EReal)
    = shapeCast S1x128 (pad S128 ![0] ![112] ![0]
        (concatenate S16 0 [⟨S4, m ((c : Thread nD τ).loc main_arg6)⟩, ⟨S12, m ((c : Thread nD τ).loc main_arg8)⟩]
          concatenates_S4_S12_S16_d0)
        (sitofp (F := Ideal) .f32 (constantI S_ 32 0#32)) pads_S16_S128_01120 h_S_) shapeCasts_S128_S1x128 := by
  host_prefix

/-- Entry j of the first bias row. -/
theorem b1_apply (j : Fin 1024) :
    (V m c main_v1 : S1x1024.Idx → EReal) (ix2 (0 : Fin 1) j) = m ((c : Thread nD τ).loc main_arg2) (ix1 j) := by
  rw [V_b1]
  exact shapeCast_a_1a_apply _ _ 0 j

/-- Entry j of the second bias row. -/
theorem b2_apply (j : Fin 1024) :
    (V m c main_v3 : S1x1024.Idx → EReal) (ix2 (0 : Fin 1) j) = m ((c : Thread nD τ).loc main_arg4) (ix1 j) := by
  rw [V_b2]
  exact shapeCast_a_1a_apply _ _ 0 j

/-- The packed weights at one of the first sixteen columns: the two heads' weights side by side. -/
theorem wch_apply (k : Fin 1024) (q : Fin 128) (hq : q.val < 16) :
    (V m c main_v6 : S1024x128.Idx → EReal) (ix2 k q)
      = if h : q.val < 4 then m ((c : Thread nD τ).loc main_arg5) (ix2 k ⟨q.val, h⟩)
        else m ((c : Thread nD τ).loc main_arg7) (ix2 k ⟨q.val - 4, by omega⟩) := by
  rw [V_wch]
  refine (pad_apply_of_inside ![0, 0] ![0, 112] ![0, 0] _ _ pads_S1024x16_S1024x128_000_01120 h_S_ (ix2 k q)
    (ix2 k (⟨q.val, hq⟩ : Fin 16)) (fun a => ?_)).trans ?_
  · match a with
    | ⟨0, _⟩ => show k.val = 0 + k.val * (0 + 1); omega
    | ⟨1, _⟩ => show q.val = 0 + q.val * (0 + 1); omega
  · exact Cert.LibConcatCols.concat_cols_apply (by decide : 4 + 12 = 16) _ _ _ k ⟨q.val, hq⟩

/-- The packed bias at one of its first sixteen entries: the two heads' biases end to end. -/
theorem bch_apply (q : Fin 128) (hq : q.val < 16) :
    (V m c main_v9 : S1x128.Idx → EReal) (ix2 (0 : Fin 1) q)
      = if h : q.val < 4 then m ((c : Thread nD τ).loc main_arg6) (ix1 ⟨q.val, h⟩)
        else m ((c : Thread nD τ).loc main_arg8) (ix1 ⟨q.val - 4, by omega⟩) := by
  rw [V_bch]
  refine (shapeCast_a_1a_apply _ _ 0 q).trans ?_
  refine (pad_apply_of_inside ![0] ![112] ![0] _ _ pads_S16_S128_01120 h_S_ (ix1 q)
    (ix1 (⟨q.val, hq⟩ : Fin 16)) (fun a => ?_)).trans ?_
  · match a with
    | ⟨0, _⟩ => show q.val = 0 + q.val * (0 + 1); omega
  · exact Cert.LibConcatVec.concat_vec_apply (by decide : 4 + 12 = 16) _ _ _ ⟨q.val, hq⟩

/-- Column q of the packed weights is column q' of the class weights when q = q' < 4. -/
theorem wch_cls (k : Fin 1024) (q : Fin 128) (q' : Fin 4) (h : q.val = q'.val) :
    (V m c main_v6 : S1024x128.Idx → EReal) (ix2 k q) = m ((c : Thread nD τ).loc main_arg5) (ix2 k q') := by
  have hq' := q'.isLt
  rw [wch_apply m c k q (by omega), dif_pos (by omega)]
  exact congrArg (fun z : Fin 4 => m ((c : Thread nD τ).loc main_arg5) (ix2 k z)) (Fin.ext h)

/-- Column q of the packed weights is column q' of the box weights when q = 4 + q'. -/
theorem wch_box (k : Fin 1024) (q : Fin 128) (q' : Fin 12) (h : q.val = 4 + q'.val) :
    (V m c main_v6 : S1024x128.Idx → EReal) (ix2 k q) = m ((c : Thread nD τ).loc main_arg7) (ix2 k q') := by
  have hq' := q'.isLt
  rw [wch_apply m c k q (by omega), dif_neg (by omega)]
  exact congrArg (fun z : Fin 12 => m ((c : Thread nD τ).loc main_arg7) (ix2 k z)) (Fin.ext (by show q.val - 4 = q'.val; omega))

/-- Entry q of the packed bias is entry q' of the class bias when q = q' < 4. -/
theorem bch_cls (q : Fin 128) (q' : Fin 4) (h : q.val = q'.val) :
    (V m c main_v9 : S1x128.Idx → EReal) (ix2 (0 : Fin 1) q) = m ((c : Thread nD τ).loc main_arg6) (ix1 q') := by
  have hq' := q'.isLt
  rw [bch_apply m c q (by omega), dif_pos (by omega)]
  exact congrArg (fun z : Fin 4 => m ((c : Thread nD τ).loc main_arg6) (ix1 z)) (Fin.ext h)

/-- Entry q of the packed bias is entry q' of the box bias when q = 4 + q'. -/
theorem bch_box (q : Fin 128) (q' : Fin 12) (h : q.val = 4 + q'.val) :
    (V m c main_v9 : S1x128.Idx → EReal) (ix2 (0 : Fin 1) q) = m ((c : Thread nD τ).loc main_arg8) (ix1 q') := by
  have hq' := q'.isLt
  rw [bch_apply m c q (by omega), dif_neg (by omega)]
  exact congrArg (fun z : Fin 12 => m ((c : Thread nD τ).loc main_arg8) (ix1 z)) (Fin.ext (by show q.val - 4 = q'.val; omega))

end Cert.KernelIdeal.Prefix

end
-- ==== Proof.Bridge.lean ====
/-
  The two cuts of the packed head are the two heads of the argument arrays.

  The arrays the call finds are the arguments themselves (x), the arguments narrowed (the hidden layers' weights: the
  identity on the extended reals), the bias vectors as one rows, and the two heads packed side by side.  Entry (n, q) of
  a head reads column q of the last layer only, and column q < 4 of the packed layer is column q of the class layer,
  column 4 + q that of the box layer.
-/
import proofs.«116548_j31834297598413_2_alg».proof.Proof.Final
import proofs.«116548_j31834297598413_2_alg».proof.Proof.Prefix

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx Cert.BoxHead

variable (m : (ℓ : Loc nD τ sig) → Buf (Elt Ideal) ℓ) (c : Dev nD)

/-- The packed head over the argument arrays: only the last layer is still the packed one. -/
theorem G_eq : Final.G m c
    = outArr (m ((c : Thread nD τ).loc main_arg0)) (m ((c : Thread nD τ).loc main_arg1)) (fun j => (m ((c : Thread nD τ).loc main_arg2)) (ix1 j)) (m ((c : Thread nD τ).loc main_arg3)) (fun j => (m ((c : Thread nD τ).loc main_arg4)) (ix1 j))
        (Blocks.arrWh m c) (fun q => Blocks.arrBh m c (ix2 (0 : Fin 1) q)) := by
  unfold Final.G
  rw [show Blocks.arrX m c = (m ((c : Thread nD τ).loc main_arg0)) from V_main_arg0 m c,
    show Blocks.arrW1 m c = (m ((c : Thread nD τ).loc main_arg1)) from Prefix.V_w1 m c,
    show Blocks.arrW2 m c = (m ((c : Thread nD τ).loc main_arg3)) from Prefix.V_w2 m c,
    show (fun j => Blocks.arrB1 m c (ix2 (0 : Fin 1) j)) = (fun j => (m ((c : Thread nD τ).loc main_arg2)) (ix1 j)) from funext (Prefix.b1_apply m c),
    show (fun j => Blocks.arrB2 m c (ix2 (0 : Fin 1) j)) = (fun j => (m ((c : Thread nD τ).loc main_arg4)) (ix1 j)) from funext (Prefix.b2_apply m c)]

/-- Columns 0 … 3 of the packed head are the class scores. -/
theorem scores_eq : extractStridedSlice S20000x4 ![0, 0] (Final.G m c) slices_S20000x128_S20000x4_0_0
    = outArr (m ((c : Thread nD τ).loc main_arg0)) (m ((c : Thread nD τ).loc main_arg1)) (fun j => (m ((c : Thread nD τ).loc main_arg2)) (ix1 j)) (m ((c : Thread nD τ).loc main_arg3)) (fun j => (m ((c : Thread nD τ).loc main_arg4)) (ix1 j))
        (m ((c : Thread nD τ).loc main_arg5)) (fun q => (m ((c : Thread nD τ).loc main_arg6)) (ix1 q)) := by
  rw [G_eq]
  funext i
  obtain ⟨n, q, rfl⟩ : ∃ (n : Fin 20000) (q : Fin 4), i = ix2 n q := ⟨i 0, i 1, eq_ix2 i⟩
  have hq := q.isLt
  refine (slice2_axis1_apply 0 _ slices_S20000x128_S20000x4_0_0 n q (⟨q.val, by omega⟩ : Fin 128)
    (Nat.zero_add _).symm).trans ?_
  unfold outArr out
  exact layer_congr _ _ _ _ _ _ _ (fun k => Prefix.wch_cls m c k _ q rfl) (Prefix.bch_cls m c _ q rfl)

/-- Columns 4 … 15 of the packed head are the box offsets. -/
theorem boxes_eq : extractStridedSlice S20000x12 ![0, 4] (Final.G m c) slices_S20000x128_S20000x12_0_4
    = outArr (m ((c : Thread nD τ).loc main_arg0)) (m ((c : Thread nD τ).loc main_arg1)) (fun j => (m ((c : Thread nD τ).loc main_arg2)) (ix1 j)) (m ((c : Thread nD τ).loc main_arg3)) (fun j => (m ((c : Thread nD τ).loc main_arg4)) (ix1 j))
        (m ((c : Thread nD τ).loc main_arg7)) (fun q => (m ((c : Thread nD τ).loc main_arg8)) (ix1 q)) := by
  rw [G_eq]
  funext i
  obtain ⟨n, q, rfl⟩ : ∃ (n : Fin 20000) (q : Fin 12), i = ix2 n q := ⟨i 0, i 1, eq_ix2 i⟩
  have hq := q.isLt
  refine (slice2_axis1_apply 4 _ slices_S20000x128_S20000x12_0_4 n q (⟨4 + q.val, by omega⟩ : Fin 128) rfl).trans ?_
  unfold outArr out
  exact layer_congr _ _ _ _ _ _ _ (fun k => Prefix.wch_box m c k _ q rfl) (Prefix.bch_box m c _ q rfl)

end Cert.KernelIdeal.Bridge

end
-- ==== Proof.lean ====
/-
  The box head kernel against its reference: fc1 + ReLU, fc2 + ReLU, then the class scores and the box offsets.

  The reference is three dense layers of whole-array operations.  The kernel computes the first layer tile by tile —
  for each of ten row tiles, fourteen steps each adding the product of a 2000 × 896 tile of x with an 896 × 1024 tile of
  the weights into an accumulator — and at a row tile's last step turns the accumulator into both heads at once, as one
  layer of width 128 whose first sixteen columns are the class weights and the box weights side by side; the host then
  cuts the two heads out.  On the extended reals a change of float format is the identity and a matrix product is a
  sum of products, so the two programs differ only in the ORDER of the first layer's sum (fourteen partial sums from
  zero against one sum), which addition's associativity settles for any entries — the inputs' finiteness is not
  used —, and in the packing, which each entry of a layer sees one column of.

  The three frames and the reference's run are the generated ones; the idealization rewrote nothing.
-/
import proofs.«116548_j31834297598413_2_alg».proof.Defs
import proofs.«116548_j31834297598413_2_alg».proof.Proof.Gen.Kernel
import proofs.«116548_j31834297598413_2_alg».proof.Proof.Gen.Kernel.Skeleton
import proofs.«116548_j31834297598413_2_alg».proof.Proof.Gen.Kernel.Launch
import proofs.«116548_j31834297598413_2_alg».proof.Proof.Gen.Kernel.Points
import proofs.«116548_j31834297598413_2_alg».proof.Proof.Gen.Kernel.Frame
import proofs.«116548_j31834297598413_2_alg».proof.Proof.Gen.KernelIdeal
import proofs.«116548_j31834297598413_2_alg».proof.Proof.Gen.KernelIdeal.Skeleton
import proofs.«116548_j31834297598413_2_alg».proof.Proof.Gen.KernelIdeal.Launch
import proofs.«116548_j31834297598413_2_alg».proof.Proof.Gen.KernelIdeal.Points
import proofs.«116548_j31834297598413_2_alg».proof.Proof.Gen.KernelIdeal.Frame
import proofs.«116548_j31834297598413_2_alg».proof.Proof.Gen.ReferenceIdeal
import proofs.«116548_j31834297598413_2_alg».proof.Proof.Gen.ReferenceIdeal.Run
import proofs.«116548_j31834297598413_2_alg».proof.Proof.Gen.ReferenceIdeal.Read
import proofs.«116548_j31834297598413_2_alg».proof.Proof.Gen.Pre_finite_inputs
import proofs.«116548_j31834297598413_2_alg».proof.Proof.Ref
import proofs.«116548_j31834297598413_2_alg».proof.Proof.Result
import proofs.«116548_j31834297598413_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the class scores and the box offsets of the specification, of arguments that agree. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · show Cert.ReferenceIdeal.Read.val_main_v13 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
    rw [Cert.ReferenceIdeal.RefValue.scores_eq, (hagree c).1, (hagree c).2.1, (hagree c).2.2.1, (hagree c).2.2.2.1, (hagree c).2.2.2.2.1, (hagree c).2.2.2.2.2.1, (hagree c).2.2.2.2.2.2.1]
    exact (Cert.KernelIdeal.Bridge.scores_eq m c).symm
  · show Cert.ReferenceIdeal.Read.val_main_v17 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [Cert.ReferenceIdeal.RefValue.boxes_eq, (hagree c).1, (hagree c).2.1, (hagree c).2.2.1, (hagree c).2.2.2.1, (hagree c).2.2.2.2.1, (hagree c).2.2.2.2.2.2.2.1, (hagree c).2.2.2.2.2.2.2.2]
    exact (Cert.KernelIdeal.Bridge.boxes_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
